-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 35
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S100000x128.size a
  hwx0_10 : ∀ i : grid0.Coords, EltTy.bits .f32 = 32 ∨ (Rect.block (s := S100000x128) S2000x128.size (cc0_transform_10 i) (hinb0_10 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000 : Shape := ⟨1, ![100000]⟩
abbrev S100000x1 : Shape := ⟨2, ![100000, 1]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S_, .f32⟩
  | .hbm, ⟨35, _⟩ => ⟨S100000x128, .f32⟩
  | .hbm, ⟨36, _⟩ => ⟨S100000x128, .i1⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000, .f32⟩
  | .hbm, ⟨43, _⟩ => ⟨S100000x1, .f32⟩
  | .hbm, ⟨44, _⟩ => ⟨S_, .f32⟩
  | .hbm, ⟨45, _⟩ => ⟨S100000x1, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000, .f32⟩
  | .hbm, ⟨52, _⟩ => ⟨S100000x1, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x1, .f32⟩
  | .hbm, ⟨60, _⟩ => ⟨S100000x1, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S_, .f32⟩
  | .hbm, ⟨77, _⟩ => ⟨S100000x128, .f32⟩
  | .hbm, ⟨78, _⟩ => ⟨S100000x128, .i1⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000, .f32⟩
  | .hbm, ⟨85, _⟩ => ⟨S100000x1, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S_, .f32⟩
  | .hbm, ⟨96, _⟩ => ⟨S100000x1, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x1, .f32⟩
  | .hbm, ⟨102, _⟩ => ⟨S100000x1, .f32⟩
  | .hbm, ⟨103, _⟩ => ⟨S100000x1, .f32⟩
  | .hbm, ⟨104, _⟩ => ⟨S100000x128, .f32⟩
  | .hbm, ⟨105, _⟩ => ⟨S100000x128, .f32⟩
  | .hbm, ⟨106, _⟩ => ⟨S1x128, .f32⟩
  | .hbm, ⟨107, _⟩ => ⟨S100000x128, .f32⟩
  | .hbm, ⟨108, _⟩ => ⟨S100000x128, .f32⟩
  | .hbm, ⟨109, _⟩ => ⟨S1x128, .f32⟩
  | .hbm, ⟨110, _⟩ => ⟨S100000x128, .f32⟩
  | .hbm, ⟨111, _⟩ => ⟨S100000x128, .f32⟩
  | .hbm, ⟨112, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v48 : Ref sig .tc := ⟨.hbm, 82, rfl⟩
abbrev main_cst_8 : Ref sig .tc := ⟨.hbm, 83, rfl⟩
abbrev main_v49 : Ref sig .tc := ⟨.hbm, 84, rfl⟩
abbrev main_v50 : Ref sig .tc := ⟨.hbm, 85, rfl⟩
abbrev main_cst_9 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_10 : Ref sig .tc := ⟨.hbm, 92, rfl⟩
abbrev main_v56 : Ref sig .tc := ⟨.hbm, 93, rfl⟩
abbrev main_v57 : Ref sig .tc := ⟨.hbm, 94, rfl⟩
abbrev main_cst_11 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_12 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowSpec.lean ====
/-
  The aggregator's dense part as one function of a row.

  Every output row depends on the same row of the two [N,128] operands (the embeddings `e` and the aggregated
  neighbour messages `s`) and on the weights only. Two branches are added: one fed with `e + s`, one with `e * s`.
  A branch multiplies its row by a 128x128 matrix, adds a bias, applies the leaky rectifier
  `x ↦ if x ≥ 0 then x else slope * x`, and normalises the row: subtract its mean, divide by the square root of
  (variance + ε), scale by γ and shift by β. Means are sums over the 128 lanes divided by 128. Everything is read
  on the extended reals, where the operations are the exact ones; the float literals (0, the slope, 128, ε) are kept
  as the words both programs print, so none of them is ever evaluated.
-/
import Idealize.ShloMosaic.PureOps.Ideal
import Idealize.ShloMosaic.Lib.ValueIdx

noncomputable section

open scoped BigOperators

namespace Cert.Agg

open Idealize.ShloMosaic Idealize.ShloMosaic.ValueIdx

/-- The leaky rectifier at one entry: `x` where `x ≥ 0`, otherwise `slope * x` (the slope is the f32 word
    `0x3C23D70A`, the zero it compares with the word `0x00000000`). -/
def act (x : EReal) : EReal :=
  Scalar.select (FloatOps.cmpf (F := Ideal) (φ := .f32) .oge x (Ideal.ofBits .f32 0x00000000#32)) x
    (Ideal.ofBits .f32 0x3C23D70A#32 * x)

/-- The mean of a row of 128 entries: their sum divided by 128 (the f32 word `0x43000000`). -/
def mean (x : Fin 128 → EReal) : EReal :=
  Ideal.div (∑ k : Fin 128, x k) (Ideal.ofBits .f32 0x43000000#32)

/-- A row with its mean subtracted. -/
def centred (x : Fin 128 → EReal) (k : Fin 128) : EReal := x k - mean x

/-- The reciprocal standard deviation of a row: `rsqrt (mean of the squared centred entries + ε)`, ε the f32 word
    `0x3727C5AC`. -/
def invStd (x : Fin 128 → EReal) : EReal :=
  Ideal.rsqrt (mean (fun k => centred x k * centred x k) + Ideal.ofBits .f32 0x3727C5AC#32)

/-- Layer normalisation of a row at lane `q`: centred, scaled by the reciprocal standard deviation, then by `γ q`,
    shifted by `β q`. -/
def lnorm (x γ β : Fin 128 → EReal) (q : Fin 128) : EReal :=
  centred x q * invStd x * γ q + β q

/-- One branch at lane `q`: the row `u` times the matrix `W`, plus the bias, through the rectifier, normalised. -/
def branch (u : Fin 128 → EReal) (W : Fin 128 → Fin 128 → EReal) (b γ β : Fin 128 → EReal) (q : Fin 128) : EReal :=
  lnorm (fun n => act ((∑ c : Fin 128, u c * W c n) + b n)) γ β q

/-- An output row at lane `q`: the sum branch (fed with `e + s`) plus the product branch (fed with `e * s`). -/
def rowOut (e s : Fin 128 → EReal) (W1 : Fin 128 → Fin 128 → EReal) (b1 : Fin 128 → EReal)
    (W2 : Fin 128 → Fin 128 → EReal) (b2 γ1 β1 γ2 β2 : Fin 128 → EReal) (q : Fin 128) : EReal :=
  branch (fun c => e c + s c) W1 b1 γ1 β1 q + branch (fun c => e c * s c) W2 b2 γ2 β2 q

/-- The whole [100000,128] result at row `r`, lane `q`, from the [100000,128] embeddings and messages, the two
    [128,128] matrices and the six [128] vectors. -/
def outAt (ego side : (⟨2, ![100000, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 γ1 β1 γ2 β2 : (⟨1, ![128]⟩ : Shape).Idx → EReal)
    (r : Fin 100000) (q : Fin 128) : EReal :=
  rowOut (fun c => ego (ix2 r c)) (fun c => side (ix2 r c)) (fun c n => W1 (ix2 c n)) (fun n => b1 (ix1 n))
    (fun c n => W2 (ix2 c n)) (fun n => b2 (ix1 n)) (fun n => γ1 (ix1 n)) (fun n => β1 (ix1 n))
    (fun n => γ2 (ix1 n)) (fun n => β2 (ix1 n)) q

/-- The same as one array: entry `i` is `outAt` at `i`'s two coordinates. -/
def out (ego side : (⟨2, ![100000, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 γ1 β1 γ2 β2 : (⟨1, ![128]⟩ : Shape).Idx → EReal) :
    (⟨2, ![100000, 128]⟩ : Shape).Idx → EReal :=
  fun i => outAt ego side W1 b1 W2 b2 γ1 β1 γ2 β2 (i 0 : Fin 100000) (i 1 : Fin 128)

theorem out_ix2 (ego side : (⟨2, ![100000, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 γ1 β1 γ2 β2 : (⟨1, ![128]⟩ : Shape).Idx → EReal)
    (r : Fin 100000) (q : Fin 128) :
    out ego side W1 b1 W2 b2 γ1 β1 γ2 β2 (ix2 r q) = outAt ego side W1 b1 W2 b2 γ1 β1 γ2 β2 r q := rfl

end Cert.Agg

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.KernelRow.lean ====
/-
  What one grid point computes, read at an entry of its [2000,128] block.

  The body loads a block of the embeddings and the same block of the aggregated messages, the two weight matrices and
  six [1,128] rows, and stores one [2000,128] block. Each branch is: a matrix product into a zero accumulator, the bias
  row broadcast down the block, the leaky rectifier, and layer normalisation along the lanes (a lane sum kept as a
  [2000,1] column, divided by 128, broadcast back over the lanes). Read at row `p`, lane `q` of the block, every
  piece depends on row `p` of its operand only, and is the row function of the specification at that row.
-/
import proofs.«177366_j12429635354865_2_alg».proof.Proof.Gen.KernelIdeal
import proofs.«177366_j12429635354865_2_alg».proof.Proof.Gen.KernelIdeal.Skeleton
import proofs.«177366_j12429635354865_2_alg».proof.Proof.RowSpec
import proofs.«177366_j12429635354865_2_alg».proof.Proof.LibPlainMatmul
import proofs.«177366_j12429635354865_2_alg».proof.Proof.LibColumnCast
import proofs.«177366_j12429635354865_2_alg».proof.Proof.LibColumnBroadcast
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BlockValue

open Cert.KernelIdeal Cert.KernelIdeal.Gen Idealize.ShloMosaic Idealize.ShloMosaic.ValueIdx

/-! ## The block's computation in the body's own operations -/

/-- The leaky rectifier over a block. -/
def kLeaky (x : FVec Ideal S2000x128 .f32) : FVec Ideal S2000x128 .f32 :=
  select (cmpf .oge x (broadcast S2000x128 (Scalar.ofBits (F := Ideal) .f32 0x00000000#32))) x
    (mulf (broadcast S2000x128 (Scalar.ofBits (F := Ideal) .f32 0x3C23D70A#32)) x)

/-- Row means of a block as a [2000,1] column: the lane sum, cast to a column, over 128. -/
def kMean (y : FVec Ideal S2000x128 .f32) : FVec Ideal S2000x1 .f32 :=
  divf (shapeCast S2000x1 (multiReduction .add [1] S2000 y 0x00000000#32 reduces_S2000x128_S2000 (.inl rfl) rfl)
      shapeCasts_S2000_S2000x1)
    (broadcast S2000x1 (Scalar.ofBits (F := Ideal) .f32 0x43000000#32))

/-- Every row of a block with its mean subtracted. -/
def kCentre (y : FVec Ideal S2000x128 .f32) : FVec Ideal S2000x128 .f32 :=
  subf y (broadcastTo S2000x128 (kMean y) broadcasts_S2000x1_S2000x128)

/-- A block centred and scaled by its rows' reciprocal standard deviations. -/
def kNormed (y : FVec Ideal S2000x128 .f32) : FVec Ideal S2000x128 .f32 :=
  mulf (kCentre y)
    (broadcastTo S2000x128
      (rsqrt (addf (kMean (mulf (kCentre y) (kCentre y)))
        (broadcast S2000x1 (Scalar.ofBits (F := Ideal) .f32 0x3727C5AC#32))))
      broadcasts_S2000x1_S2000x128)

/-- A [1,128] row repeated down the block. -/
def kRow (v : FVec Ideal S1x128 .f32) : FVec Ideal S2000x128 .f32 :=
  broadcastTo S2000x128 (shapeCast S1x128 v shapeCasts_S1x128_S1x128) broadcasts_S1x128_S2000x128

/-- A block times a 128x128 matrix, plus the bias row. -/
def kPre (u : FVec Ideal S2000x128 .f32) (W : FVec Ideal S128x128 .f32) (b : FVec Ideal S1x128 .f32) :
    FVec Ideal S2000x128 .f32 :=
  addf (matmul dot_S2000x128_S128x128_S2000x128_1_0_0_1_n_n none u W (constant (F := Ideal) S2000x128 .f32 0x00000000#32))
    (kRow b)

/-! ## Each piece at row `p`, lane `q` -/

theorem kLeaky_at (x : FVec Ideal S2000x128 .f32) (p : Fin 2000) (q : Fin 128) :
    kLeaky x (ix2 p q) = Cert.Agg.act (x (ix2 p q)) := rfl

/-- The lane sum of a block at row `p` is the sum of that row's 128 entries. -/
theorem laneSum_at (y : FVec Ideal S2000x128 .f32) (p : Fin 2000) :
    multiReduction .add [1] S2000 y 0x00000000#32 reduces_S2000x128_S2000 (.inl rfl) rfl (ix1 p)
      = ∑ k : Fin 128, y (ix2 p k) := by
  refine (Ideal.multiReduction_add_single y 0x00000000#32 reduces_S2000x128_S2000 (.inl rfl) rfl (ix1 p)).trans ?_
  show ∑ k : Fin 128, y (reduces_S2000x128_S2000.lift (ix1 p) k) = _
  refine Finset.sum_congr rfl fun k _ => congrArg y ?_
  funext a; apply Fin.ext
  match a with
  | ⟨0, _⟩ => rfl
  | ⟨1, _⟩ => rfl

theorem kMean_at (y : FVec Ideal S2000x128 .f32) (p : Fin 2000) :
    kMean y (ix2 p (0 : Fin 1)) = Cert.Agg.mean (fun k => y (ix2 p k)) := by
  show Ideal.div (shapeCast S2000x1 _ shapeCasts_S2000_S2000x1 (ix2 p (0 : Fin 1))) _ = _
  rw [Cert.LibColumnCast.shapeCast_a_a1_apply _ shapeCasts_S2000_S2000x1 p 0, laneSum_at]
  rfl

theorem kCentre_at (y : FVec Ideal S2000x128 .f32) (p : Fin 2000) (q : Fin 128) :
    kCentre y (ix2 p q) = Cert.Agg.centred (fun k => y (ix2 p k)) q := by
  show y (ix2 p q) - broadcastTo S2000x128 (kMean y) broadcasts_S2000x1_S2000x128 (ix2 p q) = _
  rw [Cert.LibColumnBroadcast.broadcastTo_a1_ab_apply (kMean y) broadcasts_S2000x1_S2000x128 p q, kMean_at]
  rfl

theorem kNormed_at (y : FVec Ideal S2000x128 .f32) (p : Fin 2000) (q : Fin 128) :
    kNormed y (ix2 p q) = Cert.Agg.centred (fun k => y (ix2 p k)) q * Cert.Agg.invStd (fun k => y (ix2 p k)) := by
  show kCentre y (ix2 p q) * broadcastTo S2000x128 _ broadcasts_S2000x1_S2000x128 (ix2 p q) = _
  rw [Cert.LibColumnBroadcast.broadcastTo_a1_ab_apply _ broadcasts_S2000x1_S2000x128 p q, kCentre_at]
  refine congrArg (Cert.Agg.centred (fun k => y (ix2 p k)) q * ·) ?_
  show Ideal.rsqrt (kMean (mulf (kCentre y) (kCentre y)) (ix2 p (0 : Fin 1)) + _) = _
  rw [kMean_at]
  refine congrArg (fun z => Ideal.rsqrt (Cert.Agg.mean z + Ideal.ofBits .f32 0x3727C5AC#32)) ?_
  funext k
  show kCentre y (ix2 p k) * kCentre y (ix2 p k) = _
  rw [kCentre_at]

theorem kRow_at (v : FVec Ideal S1x128 .f32) (p : Fin 2000) (q : Fin 128) :
    kRow v (ix2 p q) = v (ix2 (0 : Fin 1) q) := by
  unfold kRow
  rw [shapeCast_self]
  exact broadcastTo_1b_ab_apply v broadcasts_S1x128_S2000x128 p q

theorem kPre_at (u : FVec Ideal S2000x128 .f32) (W : FVec Ideal S128x128 .f32) (b : FVec Ideal S1x128 .f32)
    (p : Fin 2000) (q : Fin 128) :
    kPre u W b (ix2 p q) = (∑ c : Fin 128, u (ix2 p c) * W (ix2 c q)) + b (ix2 (0 : Fin 1) q) := by
  show matmul dot_S2000x128_S128x128_S2000x128_1_0_0_1_n_n none u W (constant (F := Ideal) S2000x128 .f32 0x00000000#32) (ix2 p q)
      + kRow b (ix2 p q) = _
  rw [kRow_at]
  exact congrArg (· + b (ix2 (0 : Fin 1) q)) (matmul_plain_zero_apply none u W p q)

/-! ## The stored payload -/

/-- One branch of the block — product, bias, rectifier, normalisation, then scale by the γ row and shift by the β
    row — at row `p`, lane `q`, is the specification's branch of row `p` of its operand. -/
theorem kBranch_at (u : FVec Ideal S2000x128 .f32) (W : FVec Ideal S128x128 .f32) (b γ β : FVec Ideal S1x128 .f32)
    (p : Fin 2000) (q : Fin 128) :
    addf (mulf (kNormed (kLeaky (kPre u W b))) (kRow γ)) (kRow β) (ix2 p q)
      = Cert.Agg.branch (fun c => u (ix2 p c)) (fun c n => W (ix2 c n)) (fun n => b (ix2 (0 : Fin 1) n))
          (fun n => γ (ix2 (0 : Fin 1) n)) (fun n => β (ix2 (0 : Fin 1) n)) q := by
  show kNormed (kLeaky (kPre u W b)) (ix2 p q) * kRow γ (ix2 p q) + kRow β (ix2 p q) = _
  rw [kNormed_at, kRow_at, kRow_at]
  have hrow : (fun k => kLeaky (kPre u W b) (ix2 p k))
      = fun n => Cert.Agg.act ((∑ c : Fin 128, u (ix2 p c) * W (ix2 c n)) + b (ix2 (0 : Fin 1) n)) := by
    funext k; rw [kLeaky_at, kPre_at]
  rw [hrow]
  rfl

/-- The body's stored value is the sum branch plus the product branch, in the pieces above: the sum branch is fed
    with the embeddings block plus the messages block, the product branch with their entrywise product. -/
theorem payload_eq (x0 x1 : Vec Ideal S2000x128 .f32) (x2 : Vec Ideal S128x128 .f32) (x3 : Vec Ideal S1x128 .f32)
    (x4 : Vec Ideal S128x128 .f32) (x5 x6 x7 x8 x9 : Vec Ideal S1x128 .f32) :
    k0_pay6 (k0_pay2 x0 x1) (k0_pay3 x7) (k0_pay4 x0 x1 x2 x3) (k0_pay5 x6) x4 x5 x8 x9
      = addf
          (addf (mulf (kNormed (kLeaky (kPre (addf x0 (shapeCast S2000x128 x1 shapeCasts_S2000x128_S2000x128)) x2 x3)))
            (kRow x6)) (kRow x7))
          (addf (mulf (kNormed (kLeaky (kPre (mulf x0 (shapeCast S2000x128 x1 shapeCasts_S2000x128_S2000x128)) x4 x5)))
            (kRow x8)) (kRow x9)) := rfl

/-- The stored value at row `p`, lane `q` of the block is the specification's output row function of row `p` of
    the two loaded blocks, the matrices entry by entry and the six rows read along their one row. -/
theorem payload_at (x0 x1 : Vec Ideal S2000x128 .f32) (x2 : Vec Ideal S128x128 .f32) (x3 : Vec Ideal S1x128 .f32)
    (x4 : Vec Ideal S128x128 .f32) (x5 x6 x7 x8 x9 : Vec Ideal S1x128 .f32) (p : Fin 2000) (q : Fin 128) :
    k0_pay6 (k0_pay2 x0 x1) (k0_pay3 x7) (k0_pay4 x0 x1 x2 x3) (k0_pay5 x6) x4 x5 x8 x9 (ix2 p q)
      = Cert.Agg.rowOut (fun c => x0 (ix2 p c)) (fun c => x1 (ix2 p c)) (fun c n => x2 (ix2 c n))
          (fun n => x3 (ix2 (0 : Fin 1) n)) (fun c n => x4 (ix2 c n)) (fun n => x5 (ix2 (0 : Fin 1) n))
          (fun n => x6 (ix2 (0 : Fin 1) n)) (fun n => x7 (ix2 (0 : Fin 1) n)) (fun n => x8 (ix2 (0 : Fin 1) n))
          (fun n => x9 (ix2 (0 : Fin 1) n)) q := by
  rw [payload_eq, shapeCast_self]
  show addf (mulf (kNormed (kLeaky (kPre (addf x0 x1) x2 x3))) (kRow x6)) (kRow x7) (ix2 p q)
      + addf (mulf (kNormed (kLeaky (kPre (mulf x0 x1) x4 x5))) (kRow x8)) (kRow x9) (ix2 p q) = _
  rw [kBranch_at, kBranch_at]
  rfl

end Cert.KernelIdeal.BlockValue

end
-- ==== Proof.KernelHost.lean ====
/-
  What the kernel call finds in the buffers the host operations in front of it wrote.

  Sixteen host operations compute the aggregated messages from the embeddings and the three edge arrays (every edge
  contributes its value times the embedding row at its column to the row it names); six reshapes turn the [128]
  bias, scale and shift vectors into [1,128] rows. Read back, the messages buffer holds that composed term of the
  arguments, and each reshaped row holds its argument's entries along its one row.
-/
import proofs.«177366_j12429635354865_2_alg».proof.Proof.Gen.KernelIdeal.Value
import Idealize.ShloMosaic.Lib.Pipeline.Value
import Idealize.ShloMosaic.Lib.StableHlo.Run
import Idealize.ShloMosaic.Lib.ValueLayout

noncomputable section

open scoped BigOperators

namespace Cert.KernelIdeal.HostValue

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The host operations in front of the call -/

/-- The aggregated messages: a scatter-add, into the zero [N,128] array at the edges' rows, of each edge's value
    times the embedding row gathered at the edge's column (a negative column shifted by N first). -/
def sideK (ego : FVec Ideal S100000x128 .f32) (row col : (⟨S1600000, .i32⟩ : BufTy).Contents (Elt Ideal))
    (val : FVec Ideal S1600000 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (broadcastInDim S1600000x128 ![0, 1] bcast_S1600000x1_S1600000x128_0_1
            (broadcastInDim S1600000x1 ![0] bcast_S1600000_S1600000x1_0 val))
      (Host.gather gather_S100000x128_S1600000x1_S1600000x128_1_0_n_n_0_1_1128 ego
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

attribute [local irreducible] Host.gather Host.scatterAdd in
set_option maxHeartbeats 1000000 in
/-- When the call is reached, the messages buffer holds the aggregated messages of the arguments. -/
theorem V_side (c : Dev nD) :
    (V m c main_v12 : S100000x128.Idx → EReal)
      = sideK (m ((c : Thread nD τ).loc main_arg0)) (m ((c : Thread nD τ).loc main_arg1))
          (m ((c : Thread nD τ).loc main_arg2)) (m ((c : Thread nD τ).loc main_arg3)) := by
  dsimp only [Gen.V, Gen.hostOps0]
  after_results_simp
  rfl

/-- A reshaped [128] argument, read along its one row, is the argument: here the first bias vector. -/
theorem V_row13 (c : Dev nD) (n : Fin 128) :
    (V m c main_v13 : S1x128.Idx → EReal) (ix2 (0 : Fin 1) n) = (m ((c : Thread nD τ).loc main_arg5) : S128.Idx → EReal) (ix1 n) := by
  have e : (V m c main_v13 : S1x128.Idx → EReal)
      = shapeCast S1x128 (m ((c : Thread nD τ).loc main_arg5) : S128.Idx → EReal) shapeCasts_S128_S1x128 := by
    dsimp only [Gen.V, Gen.hostOps0]; after_results; rfl
  rw [e]; exact shapeCast_a_1a_apply _ shapeCasts_S128_S1x128 (0 : Fin 1) n

/-- The second bias row is the second bias vector. -/
theorem V_row14 (c : Dev nD) (n : Fin 128) :
    (V m c main_v14 : S1x128.Idx → EReal) (ix2 (0 : Fin 1) n) = (m ((c : Thread nD τ).loc main_arg7) : S128.Idx → EReal) (ix1 n) := by
  have e : (V m c main_v14 : S1x128.Idx → EReal)
      = shapeCast S1x128 (m ((c : Thread nD τ).loc main_arg7) : S128.Idx → EReal) shapeCasts_S128_S1x128 := by
    dsimp only [Gen.V, Gen.hostOps0]; after_results; rfl
  rw [e]; exact shapeCast_a_1a_apply _ shapeCasts_S128_S1x128 (0 : Fin 1) n

/-- The first scale row is the first scale vector. -/
theorem V_row15 (c : Dev nD) (n : Fin 128) :
    (V m c main_v15 : S1x128.Idx → EReal) (ix2 (0 : Fin 1) n) = (m ((c : Thread nD τ).loc main_arg8) : S128.Idx → EReal) (ix1 n) := by
  have e : (V m c main_v15 : S1x128.Idx → EReal)
      = shapeCast S1x128 (m ((c : Thread nD τ).loc main_arg8) : S128.Idx → EReal) shapeCasts_S128_S1x128 := by
    dsimp only [Gen.V, Gen.hostOps0]; after_results; rfl
  rw [e]; exact shapeCast_a_1a_apply _ shapeCasts_S128_S1x128 (0 : Fin 1) n

/-- The first shift row is the first shift vector. -/
theorem V_row16 (c : Dev nD) (n : Fin 128) :
    (V m c main_v16 : S1x128.Idx → EReal) (ix2 (0 : Fin 1) n) = (m ((c : Thread nD τ).loc main_arg9) : S128.Idx → EReal) (ix1 n) := by
  have e : (V m c main_v16 : S1x128.Idx → EReal)
      = shapeCast S1x128 (m ((c : Thread nD τ).loc main_arg9) : S128.Idx → EReal) shapeCasts_S128_S1x128 := by
    dsimp only [Gen.V, Gen.hostOps0]; after_results; rfl
  rw [e]; exact shapeCast_a_1a_apply _ shapeCasts_S128_S1x128 (0 : Fin 1) n

/-- The second scale row is the second scale vector. -/
theorem V_row17 (c : Dev nD) (n : Fin 128) :
    (V m c main_v17 : S1x128.Idx → EReal) (ix2 (0 : Fin 1) n) = (m ((c : Thread nD τ).loc main_arg10) : S128.Idx → EReal) (ix1 n) := by
  have e : (V m c main_v17 : S1x128.Idx → EReal)
      = shapeCast S1x128 (m ((c : Thread nD τ).loc main_arg10) : S128.Idx → EReal) shapeCasts_S128_S1x128 := by
    dsimp only [Gen.V, Gen.hostOps0]; after_results; rfl
  rw [e]; exact shapeCast_a_1a_apply _ shapeCasts_S128_S1x128 (0 : Fin 1) n

/-- The second shift row is the second shift vector. -/
theorem V_row18 (c : Dev nD) (n : Fin 128) :
    (V m c main_v18 : S1x128.Idx → EReal) (ix2 (0 : Fin 1) n) = (m ((c : Thread nD τ).loc main_arg11) : S128.Idx → EReal) (ix1 n) := by
  have e : (V m c main_v18 : S1x128.Idx → EReal)
      = shapeCast S1x128 (m ((c : Thread nD τ).loc main_arg11) : S128.Idx → EReal) shapeCasts_S128_S1x128 := by
    dsimp only [Gen.V, Gen.hostOps0]; after_results; rfl
  rw [e]; exact shapeCast_a_1a_apply _ shapeCasts_S128_S1x128 (0 : Fin 1) n

end Cert.KernelIdeal.HostValue

end
-- ==== Proof.KernelBlocks.lean ====
/-
  The windows' blocks at a grid point, entry by entry.

  At point `t` of the 50-point grid the two row-blocked operands (the embeddings and the aggregated messages) hand
  the body rows 2000·t … 2000·t + 1999 of their arrays: entry (p, q) of the block is entry (2000·t + p, q) of the
  array. The eight other operands are handed over whole at every point: the two 128x128 matrices entry for entry,
  and the six [1,128] rows, each of which is a [128] argument read along its one row.
-/
import proofs.«177366_j12429635354865_2_alg».proof.Proof.Gen.KernelIdeal.Value
import proofs.«177366_j12429635354865_2_alg».proof.Proof.KernelHost
import Idealize.ShloMosaic.Lib.Pipeline.Value
import Idealize.ShloMosaic.Lib.ValueLayout

noncomputable section

open scoped BigOperators

namespace Cert.KernelIdeal.BlockReads

open Cert.KernelIdeal Cert.KernelIdeal.Gen Cert.KernelIdeal.Value Cert.KernelIdeal.HostValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The windows' blocks at a grid point -/

theorem hz : (![0, 0] : Fin 2 → Nat) = fun _ => 0 := funext fun a => by fin_cases a <;> rfl

/-- The printed index maps of the three operands that move with the grid, decided over the 50 points: the two
    row-blocked inputs and the output sit at block (t, 0). -/
theorem idx_moving : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_10.index t (0 : Fin 2) = t.val ∧ win0_10.index t (1 : Fin 2) = 0) :=
  (by decide +kernel : ∀ t : Fin grid0.N, _)

/-! The eight other operands' index maps return the literal block (0, 0) at every point. -/
theorem idx2 (t : Fin cfg0.N) : win0_2.index t (0 : Fin 2) = 0 ∧ win0_2.index t (1 : Fin 2) = 0 := ⟨rfl, rfl⟩
theorem idx3 (t : Fin cfg0.N) : win0_3.index t (0 : Fin 2) = 0 ∧ win0_3.index t (1 : Fin 2) = 0 := ⟨rfl, rfl⟩
theorem idx4 (t : Fin cfg0.N) : win0_4.index t (0 : Fin 2) = 0 ∧ win0_4.index t (1 : Fin 2) = 0 := ⟨rfl, rfl⟩
theorem idx5 (t : Fin cfg0.N) : win0_5.index t (0 : Fin 2) = 0 ∧ win0_5.index t (1 : Fin 2) = 0 := ⟨rfl, rfl⟩
theorem idx6 (t : Fin cfg0.N) : win0_6.index t (0 : Fin 2) = 0 ∧ win0_6.index t (1 : Fin 2) = 0 := ⟨rfl, rfl⟩
theorem idx7 (t : Fin cfg0.N) : win0_7.index t (0 : Fin 2) = 0 ∧ win0_7.index t (1 : Fin 2) = 0 := ⟨rfl, rfl⟩
theorem idx8 (t : Fin cfg0.N) : win0_8.index t (0 : Fin 2) = 0 ∧ win0_8.index t (1 : Fin 2) = 0 := ⟨rfl, rfl⟩
theorem idx9 (t : Fin cfg0.N) : win0_9.index t (0 : Fin 2) = 0 ∧ win0_9.index t (1 : Fin 2) = 0 := ⟨rfl, rfl⟩

/-- The embeddings block at point `t`: entry (p, q) is the argument's entry (2000·t + p, q). -/
theorem iblk0_at (c : Dev nD) (t : Fin cfg0.N) (p : Fin 2000) (q : Fin 128) (r : Fin 100000)
    (hr : r.val = 2000 * t.val + p.val) :
    (iblk m c 0 t : Vec Ideal S2000x128 .f32) (ix2 p q)
      = (m ((c : Thread nD τ).loc main_arg0) : S100000x128.Idx → EReal) (ix2 r q) := by
  obtain ⟨⟨e0, e1⟩, -⟩ := idx_moving t
  unfold iblk
  rw [View.read_apply]
  show V m c main_arg0 _ = _
  rw [V_main_arg0]
  refine congrArg (m ((c : Thread nD τ).loc main_arg0) : S100000x128.Idx → EReal) ?_
  funext a; apply Fin.ext
  match a with
  | ⟨0, _⟩ => show win0_0.index t (0 : Fin 2) * 2000 + 1 * p.val = r.val; omega
  | ⟨1, _⟩ => show win0_0.index t (1 : Fin 2) * 128 + 1 * q.val = q.val; omega

/-- The messages buffer as the call finds it: what the host operations in front of the call left there. It is never
    opened here; only its entries are named. -/
def msgs (c : Dev nD) : S100000x128.Idx → EReal := V m c (Pipeline.arrRef spec0 (1 : Fin cfg0.W))

/-- The second operand's block at point `t`, over ANY [100000,128] array: entry (p, q) of the block is the array's
    entry (2000·t + p, q). -/
theorem read1_at (X : S100000x128.Idx → EReal) (t : Fin cfg0.N) (p : Fin 2000) (q : Fin 128) (r : Fin 100000)
    (hr : r.val = 2000 * t.val + p.val) :
    (((cfg0.win 1).blk t).view.read (Elt Ideal) X : Vec Ideal S2000x128 .f32) (ix2 p q) = X (ix2 r q) := by
  obtain ⟨-, ⟨e0, e1⟩, -⟩ := idx_moving t
  rw [View.read_apply]
  refine congrArg X ?_
  funext a; apply Fin.ext
  match a with
  | ⟨0, _⟩ => show win0_1.index t (0 : Fin 2) * 2000 + 1 * p.val = r.val; omega
  | ⟨1, _⟩ => show win0_1.index t (1 : Fin 2) * 128 + 1 * q.val = q.val; omega

/-- The messages block at point `t`: entry (p, q) is the messages buffer's entry (2000·t + p, q). -/
theorem iblk1_at (c : Dev nD) (t : Fin cfg0.N) (p : Fin 2000) (q : Fin 128) (r : Fin 100000)
    (hr : r.val = 2000 * t.val + p.val) :
    (iblk m c 1 t : Vec Ideal S2000x128 .f32) (ix2 p q) = msgs m c (ix2 r q) := by
  unfold iblk msgs
  exact read1_at (V m c (Pipeline.arrRef spec0 (1 : Fin cfg0.W))) t p q r hr

/-- The first matrix, loaded whole at every point, is the argument. -/
theorem iblk2_at (c : Dev nD) (t : Fin cfg0.N) (a b : Fin 128) :
    (iblk m c 2 t : Vec Ideal S128x128 .f32) (ix2 a b)
      = (m ((c : Thread nD τ).loc main_arg4) : S128x128.Idx → EReal) (ix2 a b) := by
  have e := idx2 t
  unfold iblk
  rw [View.read_apply]
  show V m c main_arg4 _ = _
  rw [V_main_arg4]
  refine congrArg (m ((c : Thread nD τ).loc main_arg4) : S128x128.Idx → EReal) ?_
  funext x; apply Fin.ext
  match x with
  | ⟨0, _⟩ => show win0_2.index t (0 : Fin 2) * 128 + 1 * a.val = a.val; have := e.1; omega
  | ⟨1, _⟩ => show win0_2.index t (1 : Fin 2) * 128 + 1 * b.val = b.val; have := e.2; omega

/-- The first bias row, loaded whole, is the first bias vector along its one row. -/
theorem iblk3_at (c : Dev nD) (t : Fin cfg0.N) (n : Fin 128) :
    (iblk m c 3 t : Vec Ideal S1x128 .f32) (ix2 (0 : Fin 1) n)
      = (m ((c : Thread nD τ).loc main_arg5) : S128.Idx → EReal) (ix1 n) := by
  have e := idx3 t
  unfold iblk
  rw [View.read_apply]
  show V m c main_v13 _ = _
  refine (congrArg (V m c main_v13 : S1x128.Idx → EReal) ?_).trans (V_row13 m c n)
  funext x; apply Fin.ext
  match x with
  | ⟨0, _⟩ => show win0_3.index t (0 : Fin 2) * 1 + 1 * (0 : Fin 1).val = (0 : Fin 1).val; have := e.1; omega
  | ⟨1, _⟩ => show win0_3.index t (1 : Fin 2) * 128 + 1 * n.val = n.val; have := e.2; omega

/-- The second matrix, loaded whole at every point, is the argument. -/
theorem iblk4_at (c : Dev nD) (t : Fin cfg0.N) (a b : Fin 128) :
    (iblk m c 4 t : Vec Ideal S128x128 .f32) (ix2 a b)
      = (m ((c : Thread nD τ).loc main_arg6) : S128x128.Idx → EReal) (ix2 a b) := by
  have e := idx4 t
  unfold iblk
  rw [View.read_apply]
  show V m c main_arg6 _ = _
  rw [V_main_arg6]
  refine congrArg (m ((c : Thread nD τ).loc main_arg6) : S128x128.Idx → EReal) ?_
  funext x; apply Fin.ext
  match x with
  | ⟨0, _⟩ => show win0_4.index t (0 : Fin 2) * 128 + 1 * a.val = a.val; have := e.1; omega
  | ⟨1, _⟩ => show win0_4.index t (1 : Fin 2) * 128 + 1 * b.val = b.val; have := e.2; omega

/-- The second bias row is the second bias vector. -/
theorem iblk5_at (c : Dev nD) (t : Fin cfg0.N) (n : Fin 128) :
    (iblk m c 5 t : Vec Ideal S1x128 .f32) (ix2 (0 : Fin 1) n)
      = (m ((c : Thread nD τ).loc main_arg7) : S128.Idx → EReal) (ix1 n) := by
  have e := idx5 t
  unfold iblk
  rw [View.read_apply]
  show V m c main_v14 _ = _
  refine (congrArg (V m c main_v14 : S1x128.Idx → EReal) ?_).trans (V_row14 m c n)
  funext x; apply Fin.ext
  match x with
  | ⟨0, _⟩ => show win0_5.index t (0 : Fin 2) * 1 + 1 * (0 : Fin 1).val = (0 : Fin 1).val; have := e.1; omega
  | ⟨1, _⟩ => show win0_5.index t (1 : Fin 2) * 128 + 1 * n.val = n.val; have := e.2; omega

/-- The first scale row is the first scale vector. -/
theorem iblk6_at (c : Dev nD) (t : Fin cfg0.N) (n : Fin 128) :
    (iblk m c 6 t : Vec Ideal S1x128 .f32) (ix2 (0 : Fin 1) n)
      = (m ((c : Thread nD τ).loc main_arg8) : S128.Idx → EReal) (ix1 n) := by
  have e := idx6 t
  unfold iblk
  rw [View.read_apply]
  show V m c main_v15 _ = _
  refine (congrArg (V m c main_v15 : S1x128.Idx → EReal) ?_).trans (V_row15 m c n)
  funext x; apply Fin.ext
  match x with
  | ⟨0, _⟩ => show win0_6.index t (0 : Fin 2) * 1 + 1 * (0 : Fin 1).val = (0 : Fin 1).val; have := e.1; omega
  | ⟨1, _⟩ => show win0_6.index t (1 : Fin 2) * 128 + 1 * n.val = n.val; have := e.2; omega

/-- The first shift row is the first shift vector. -/
theorem iblk7_at (c : Dev nD) (t : Fin cfg0.N) (n : Fin 128) :
    (iblk m c 7 t : Vec Ideal S1x128 .f32) (ix2 (0 : Fin 1) n)
      = (m ((c : Thread nD τ).loc main_arg9) : S128.Idx → EReal) (ix1 n) := by
  have e := idx7 t
  unfold iblk
  rw [View.read_apply]
  show V m c main_v16 _ = _
  refine (congrArg (V m c main_v16 : S1x128.Idx → EReal) ?_).trans (V_row16 m c n)
  funext x; apply Fin.ext
  match x with
  | ⟨0, _⟩ => show win0_7.index t (0 : Fin 2) * 1 + 1 * (0 : Fin 1).val = (0 : Fin 1).val; have := e.1; omega
  | ⟨1, _⟩ => show win0_7.index t (1 : Fin 2) * 128 + 1 * n.val = n.val; have := e.2; omega

/-- The second scale row is the second scale vector. -/
theorem iblk8_at (c : Dev nD) (t : Fin cfg0.N) (n : Fin 128) :
    (iblk m c 8 t : Vec Ideal S1x128 .f32) (ix2 (0 : Fin 1) n)
      = (m ((c : Thread nD τ).loc main_arg10) : S128.Idx → EReal) (ix1 n) := by
  have e := idx8 t
  unfold iblk
  rw [View.read_apply]
  show V m c main_v17 _ = _
  refine (congrArg (V m c main_v17 : S1x128.Idx → EReal) ?_).trans (V_row17 m c n)
  funext x; apply Fin.ext
  match x with
  | ⟨0, _⟩ => show win0_8.index t (0 : Fin 2) * 1 + 1 * (0 : Fin 1).val = (0 : Fin 1).val; have := e.1; omega
  | ⟨1, _⟩ => show win0_8.index t (1 : Fin 2) * 128 + 1 * n.val = n.val; have := e.2; omega

/-- The second shift row is the second shift vector. -/
theorem iblk9_at (c : Dev nD) (t : Fin cfg0.N) (n : Fin 128) :
    (iblk m c 9 t : Vec Ideal S1x128 .f32) (ix2 (0 : Fin 1) n)
      = (m ((c : Thread nD τ).loc main_arg11) : S128.Idx → EReal) (ix1 n) := by
  have e := idx9 t
  unfold iblk
  rw [View.read_apply]
  show V m c main_v18 _ = _
  refine (congrArg (V m c main_v18 : S1x128.Idx → EReal) ?_).trans (V_row18 m c n)
  funext x; apply Fin.ext
  match x with
  | ⟨0, _⟩ => show win0_9.index t (0 : Fin 2) * 1 + 1 * (0 : Fin 1).val = (0 : Fin 1).val; have := e.1; omega
  | ⟨1, _⟩ => show win0_9.index t (1 : Fin 2) * 128 + 1 * n.val = n.val; have := e.2; omega

end Cert.KernelIdeal.BlockReads

end
-- ==== Proof.KernelArray.lean ====
/-
  The kernel's result array as one function of the argument arrays.

  The grid has 50 points; point `t` loads rows 2000·t … 2000·t + 1999 of the embeddings and of the aggregated
  messages, the two 128x128 matrices and the six [1,128] rows whole, and writes back rows 2000·t … 2000·t + 1999 of the
  result. Entry (p, q) of the block point `t` writes is the specification's output at row 2000·t + p, lane q, because a
  row of the output depends on the same row of the two blocked operands only. The 50 blocks tile the [100000,128]
  array (row r lies in block r / 2000), so after the run it holds the specification's output everywhere.
-/
import proofs.«177366_j12429635354865_2_alg».proof.Proof.Gen.KernelIdeal.Value
import proofs.«177366_j12429635354865_2_alg».proof.Proof.KernelRow
import proofs.«177366_j12429635354865_2_alg».proof.Proof.KernelHost
import proofs.«177366_j12429635354865_2_alg».proof.Proof.KernelBlocks
import Idealize.ShloMosaic.Lib.Pipeline.Value
import Idealize.ShloMosaic.Lib.ValueLayout

noncomputable section

open scoped BigOperators

namespace Cert.KernelIdeal.ArrayValue

open Cert.KernelIdeal Cert.KernelIdeal.Gen Cert.KernelIdeal.Value Cert.KernelIdeal.BlockValue Cert.KernelIdeal.HostValue Cert.KernelIdeal.BlockReads
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## A block's entry against the specification -/

/-- The output row function takes equal values at rows that agree entry by entry. -/
theorem rowOut_congr {e e' s s' : Fin 128 → EReal} {W1 W1' W2 W2' : Fin 128 → Fin 128 → EReal}
    {b1 b1' b2 b2' g1 g1' h1 h1' g2 g2' h2 h2' : Fin 128 → EReal}
    (he : ∀ c, e c = e' c) (hs : ∀ c, s c = s' c) (hW1 : ∀ c n, W1 c n = W1' c n) (hb1 : ∀ n, b1 n = b1' n)
    (hW2 : ∀ c n, W2 c n = W2' c n) (hb2 : ∀ n, b2 n = b2' n) (hg1 : ∀ n, g1 n = g1' n) (hh1 : ∀ n, h1 n = h1' n)
    (hg2 : ∀ n, g2 n = g2' n) (hh2 : ∀ n, h2 n = h2' n) (q : Fin 128) :
    Cert.Agg.rowOut e s W1 b1 W2 b2 g1 h1 g2 h2 q = Cert.Agg.rowOut e' s' W1' b1' W2' b2' g1' h1' g2' h2' q := by
  obtain rfl : e = e' := funext he
  obtain rfl : s = s' := funext hs
  obtain rfl : W1 = W1' := funext fun c => funext (hW1 c)
  obtain rfl : b1 = b1' := funext hb1
  obtain rfl : W2 = W2' := funext fun c => funext (hW2 c)
  obtain rfl : b2 = b2' := funext hb2
  obtain rfl : g1 = g1' := funext hg1
  obtain rfl : h1 = h1' := funext hh1
  obtain rfl : g2 = g2' := funext hg2
  obtain rfl : h2 = h2' := funext hh2
  rfl

/-- What the result array holds after the run, in terms of the messages buffer as the call finds it (unopened). -/
def G (c : Dev nD) : S100000x128.Idx → EReal :=
  Cert.Agg.out (m ((c : Thread nD τ).loc main_arg0)) (msgs m c)
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))

/-- Entry (p, q) of what point `t` stores is the specification's output at row 2000·t + p, lane q. -/
theorem block_entry (c : Dev nD) (t : Fin cfg0.N) (p : Fin 2000) (q : Fin 128) (r : Fin 100000)
    (hr : r.val = 2000 * t.val + p.val) :
    k0_pay6 (k0_pay2 (iblk m c 0 t) (iblk m c 1 t)) (k0_pay3 (iblk m c 7 t))
        (k0_pay4 (iblk m c 0 t) (iblk m c 1 t) (iblk m c 2 t) (iblk m c 3 t)) (k0_pay5 (iblk m c 6 t))
        (iblk m c 4 t) (iblk m c 5 t) (iblk m c 8 t) (iblk m c 9 t) (ix2 p q)
      = G m c (ix2 r q) := by
  refine (payload_at (iblk m c 0 t) (iblk m c 1 t) (iblk m c 2 t) (iblk m c 3 t) (iblk m c 4 t) (iblk m c 5 t)
    (iblk m c 6 t) (iblk m c 7 t) (iblk m c 8 t) (iblk m c 9 t) p q).trans ?_
  unfold G
  rw [Cert.Agg.out_ix2]
  unfold Cert.Agg.outAt
  exact rowOut_congr (fun c' => iblk0_at m c t p c' r hr) (fun c' => iblk1_at m c t p c' r hr)
    (fun a b => iblk2_at m c t a b) (fun n => iblk3_at m c t n) (fun a b => iblk4_at m c t a b)
    (fun n => iblk5_at m c t n) (fun n => iblk6_at m c t n) (fun n => iblk7_at m c t n)
    (fun n => iblk8_at m c t n) (fun n => iblk9_at m c t n) q

/-- The same at any index of the block and the array index it is written to. -/
theorem block_entry_idx (c : Dev nD) (t : Fin cfg0.N) (y : S2000x128.Idx) (i : S100000x128.Idx)
    (hi0 : (i 0).val = 2000 * t.val + (y 0).val) (hi1 : (i 1).val = (y 1).val) :
    k0_pay6 (k0_pay2 (iblk m c 0 t) (iblk m c 1 t)) (k0_pay3 (iblk m c 7 t))
        (k0_pay4 (iblk m c 0 t) (iblk m c 1 t) (iblk m c 2 t) (iblk m c 3 t)) (k0_pay5 (iblk m c 6 t))
        (iblk m c 4 t) (iblk m c 5 t) (iblk m c 8 t) (iblk m c 9 t) y
      = G m c i := by
  obtain ⟨p, q, rfl⟩ : ∃ (p : Fin 2000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi1
  exact block_entry m c t p q' r hi0

/-! ## From blocks to the array -/

/-- What point `t` writes back is block `t` of `G`. -/
theorem flushed_eq (c : Dev nD) (t : Fin cfg0.N) :
    (dats m 0 c).flushed 10 t = ((cfg0.win 10).blk t).view.read (Elt Ideal) (G m c) := by
  rw [flushed10]
  unfold out0_10
  rw [View.canon_unit_zero hz]
  simp only [View.ld_unit_zero (S := S2000x128) hz, View.ld_unit_zero (S := S128x128) hz, View.ld_unit_zero (S := S1x128) hz]
  obtain e := (idx_moving t).2.2
  funext j
  refine block_entry_idx m c t j (((cfg0.win 10).blk t).view.emb j) ?_ ?_
  · show win0_10.index t (0 : Fin 2) * 2000 + 1 * (j 0).val = 2000 * t.val + (j 0).val
    have := e.1; omega
  · show win0_10.index t (1 : Fin 2) * 128 + 1 * (j 1).val = (j 1).val
    have := e.2; omega

/-- An index of the array is in point `t`'s block iff each coordinate is in the block's range on its axis. -/
theorem mem_blk (t : Fin cfg0.N) (i : S100000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v19).slice (win0_10.rect t)).set ↔ _
  rw [View.set_slice_whole, Rect.mem_set_unit]
  exact Iff.rfl

/-- Every index of the array is in some point's block: row r is in block r / 2000. -/
theorem cover (i : S100000x128.Idx) :
    ∃ t : Fin cfg0.N, (cfg0.win 10).flush t = true ∧ i ∈ ((cfg0.win 10).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain e := (idx_moving ⟨(i 0).val / 2000, ht⟩).2.2
  refine ⟨⟨(i 0).val / 2000, ht⟩, flush0_10 _, ?_⟩
  rw [mem_blk]
  intro a
  match a with
  | ⟨0, _⟩ =>
    show win0_10.index ⟨(i 0).val / 2000, ht⟩ (0 : Fin 2) * 2000 ≤ (i 0).val
      ∧ (i 0).val < win0_10.index ⟨(i 0).val / 2000, ht⟩ (0 : Fin 2) * 2000 + 2000
    have h := e.1
    simp only at h
    omega
  | ⟨1, _⟩ =>
    show win0_10.index ⟨(i 0).val / 2000, ht⟩ (1 : Fin 2) * 128 ≤ (i 1).val
      ∧ (i 1).val < win0_10.index ⟨(i 0).val / 2000, ht⟩ (1 : Fin 2) * 128 + 128
    have h := e.2
    omega

/-- After the run the result array is `G`. -/
theorem final (c : Dev nD) : (dats m 0 c).arrAt 10 cfg0.N = G m c :=
  (dats m 0 c).arrAt_eq_of_cover 10 (G m c) (fun t _ => flushed_eq m c t) cover

/-- The result array in terms of the arguments alone: the messages buffer is the aggregated messages. -/
def result (c : Dev nD) : S100000x128.Idx → EReal :=
  Cert.Agg.out (m ((c : Thread nD τ).loc main_arg0))
    (sideK (m ((c : Thread nD τ).loc main_arg0)) (m ((c : Thread nD τ).loc main_arg1))
      (m ((c : Thread nD τ).loc main_arg2)) (m ((c : Thread nD τ).loc main_arg3)))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))

/-- The messages buffer, as the call finds it, holds the aggregated messages of the arguments. -/
theorem msgs_eq (c : Dev nD) :
    msgs m c = sideK (m ((c : Thread nD τ).loc main_arg0)) (m ((c : Thread nD τ).loc main_arg1))
      (m ((c : Thread nD τ).loc main_arg2)) (m ((c : Thread nD τ).loc main_arg3)) :=
  V_side m c

theorem G_eq_result (c : Dev nD) : G m c = result m c := by
  unfold G result
  rw [msgs_eq]

/-- Every weakly fair execution of the kernel program terminates with the result array at `result` and the
    arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans ((final m c).trans (G_eq_result m c)), (h c).2⟩)
    (run_blocks m ρ)

end Cert.KernelIdeal.ArrayValue

end
-- ==== Proof.RefTerm.lean ====
/-
  What the reference computes, as whole arrays, in the host program's own operations.

  The aggregated messages `side`: every edge (row, col, val) contributes val · ego[col] to row `row` of an [N,128]
  array that starts at zero (a negative column index is first shifted by N; the gather and the scatter-add are the
  host's). Then two branches over whole [N,128] arrays — a product with a 128x128 matrix, a bias row, the leaky
  rectifier, layer normalisation along the 128 lanes — fed with ego + side and with ego * side, and added.
  Each named piece below is one stretch of the reference's operations, composed in program order.
-/
import proofs.«177366_j12429635354865_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The aggregated messages: a scatter-add, into the zero [N,128] array at the edges' rows, of each edge's value
    times the embedding row gathered at the edge's column (a negative column shifted by N first). -/
def side (ego : FVec Ideal S100000x128 .f32) (row col : (⟨S1600000, .i32⟩ : BufTy).Contents (Elt Ideal))
    (val : FVec Ideal S1600000 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (broadcastInDim S1600000x128 ![0, 1] bcast_S1600000x1_S1600000x128_0_1
            (broadcastInDim S1600000x1 ![0] bcast_S1600000_S1600000x1_0 val))
      (Host.gather gather_S100000x128_S1600000x1_S1600000x128_1_0_n_n_0_1_1128 ego
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- A [N,1] column repeated over the 128 lanes. -/
def bcol (v : FVec Ideal S100000x1 .f32) : FVec Ideal S100000x128 .f32 :=
  broadcastInDim S100000x128 ![0, 1] bcast_S100000x1_S100000x128_0_1 v

/-- A [128] vector as a row, repeated over the N rows. -/
def brow (v : FVec Ideal S128 .f32) : FVec Ideal S100000x128 .f32 :=
  broadcastInDim S100000x128 ![0, 1] bcast_S1x128_S100000x128_0_1 (broadcastInDim S1x128 ![1] bcast_S128_S1x128_1 v)

/-- A float word as a constant [N,1] column. -/
def splat1 (w : BitVec 32) : FVec Ideal S100000x1 .f32 :=
  broadcastInDim S100000x1 ![] bcast_S_S100000x1 (constant (F := Ideal) S_ .f32 w)

/-- The leaky rectifier over a whole array: x where x ≥ 0, slope · x elsewhere. -/
def leaky (x : FVec Ideal S100000x128 .f32) : FVec Ideal S100000x128 .f32 :=
  select (cmpf .oge x (broadcastInDim S100000x128 ![] bcast_S_S100000x128 (constant (F := Ideal) S_ .f32 0x00000000#32)))
    x (mulf (broadcastInDim S100000x128 ![] bcast_S_S100000x128 (id (constant (F := Ideal) S_ .f32 0x3C23D70A#32))) x)

/-- Row means as a [N,1] column: the sum along the lanes, from zero, over 128. -/
def rowMean (y : FVec Ideal S100000x128 .f32) : FVec Ideal S100000x1 .f32 :=
  Host.divf
    (broadcastInDim S100000x1 ![0] bcast_S100000_S100000x1_0
      (Host.reduceAdd y (constant (F := Ideal) S_ .f32 0x00000000#32) reducesTo_S100000x128_S100000_d1 h_S_))
    (splat1 0x43000000#32)

/-- Every row with its mean subtracted. -/
def centre (y : FVec Ideal S100000x128 .f32) : FVec Ideal S100000x128 .f32 := subf y (bcol (rowMean y))

/-- Layer normalisation along the lanes, scaled by γ and shifted by β. -/
def layerNorm (y : FVec Ideal S100000x128 .f32) (γ β : FVec Ideal S128 .f32) : FVec Ideal S100000x128 .f32 :=
  addf (mulf (mulf (centre y)
      (bcol (Host.rsqrt (addf (rowMean (mulf (centre y) (centre y))) (splat1 0x3727C5AC#32))))) (brow γ)) (brow β)

/-- One branch: product with the matrix, bias, rectifier, normalisation. -/
def refBranch (u : FVec Ideal S100000x128 .f32) (W : FVec Ideal S128x128 .f32) (b γ β : FVec Ideal S128 .f32) :
    FVec Ideal S100000x128 .f32 :=
  layerNorm (leaky (addf (Host.dotGeneral dot_S100000x128_S128x128_S100000x128_1_0_0_1_n_n none u W) (brow b))) γ β

/-- The reference's result: the product branch plus the sum branch. -/
def refOut (ego s : FVec Ideal S100000x128 .f32) (W1 : FVec Ideal S128x128 .f32) (b1 : FVec Ideal S128 .f32)
    (W2 : FVec Ideal S128x128 .f32) (b2 γ1 β1 γ2 β2 : FVec Ideal S128 .f32) : FVec Ideal S100000x128 .f32 :=
  addf (refBranch (mulf ego s) W2 b2 γ2 β2) (refBranch (addf ego s) W1 b1 γ1 β1)

end Cert.ReferenceIdeal.RefValue

end
-- ==== Proof.RefRun.lean ====
/-
  The reference program's run.

  The reference is a straight line of host operations: the edge aggregation (a gather of embedding rows at the edges'
  columns, scaled by the edges' values, scattered with addition into the edges' rows), then two branches over whole
  [N,128] arrays — a product with a 128x128 matrix, a bias row, the leaky rectifier, layer normalisation along the
  lanes —, one fed with ego + side and one with ego * side, and their sum. The rectifier is a function of the module,
  called once per branch, and itself calls the module's select: a call runs the callee's operations on the caller's
  operands, each value of the callee's body in a buffer of the call's own record, so the program is the list below
  with the callee's seven operations written out at each call over that call's buffers.

  `ops` is that list in program order; `main_eq` says @main is the list run in order; `run` reads the run back: every
  weakly fair execution terminates, the result buffer holds `refOut` of the arguments' launch contents (RefTerm.lean:
  the same operations composed as whole-array terms) and the twelve arguments are unchanged.
-/
import proofs.«177366_j12429635354865_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

section Program

variable {F : FTy → Type} [FloatOps F]

/-- @main's operations in program order, each call of the rectifier written out: its constant zero and the zero's
    broadcast, the comparison of the input with it, the slope converted to its own type and broadcast, the slope times
    the input, and the select between the input and that product — seven operations into the call's own buffers, the
    select's result being the call's. Around the two calls, @main's own eighty-seven. -/
abbrev ops : List (HloOp τ sig (Elt F)) :=
  [
    -- the edge aggregation: each edge's value as a column, the column index shifted by N where negative, the embedding
    -- rows gathered at it, the products, scattered with addition into the zero array at the edges' rows
    unary main_arg3 main_v0 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg2 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg2 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg2 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_arg0 main_v6 main_v7 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v0 main_v8 (broadcastInDim S1600000x128 ![0, 1] bcast_S1600000x1_S1600000x128_0_1 : (⟨S1600000x1, .f32⟩ : BufTy).Contents (Elt F) → (⟨S1600000x128, .f32⟩ : BufTy).Contents (Elt F)),
    binary main_v8 main_v7 main_v9 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg1 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    -- the sum branch: ego + side times the first matrix, plus its bias row
    binary main_arg0 main_v12 main_v13 (addf : (⟨S100000x128, .f32⟩ : BufTy).Contents (Elt F) → (⟨S100000x128, .f32⟩ : BufTy).Contents (Elt F) → (⟨S100000x128, .f32⟩ : BufTy).Contents (Elt F)),
    binary main_v13 main_arg4 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v15 (broadcastInDim S1x128 ![1] bcast_S128_S1x128_1 : (⟨S128, .f32⟩ : BufTy).Contents (Elt F) → (⟨S1x128, .f32⟩ : BufTy).Contents (Elt F)),
    unary main_v15 main_v16 (broadcastInDim S100000x128 ![0, 1] bcast_S1x128_S100000x128_0_1 : (⟨S1x128, .f32⟩ : BufTy).Contents (Elt F) → (⟨S100000x128, .f32⟩ : BufTy).Contents (Elt F)),
    binary main_v14 main_v16 main_v17 (addf : (⟨S100000x128, .f32⟩ : BufTy).Contents (Elt F) → (⟨S100000x128, .f32⟩ : BufTy).Contents (Elt F) → (⟨S100000x128, .f32⟩ : BufTy).Contents (Elt F)),
    -- the leaky rectifier of the sum branch: the slope, the comparison with zero, the slope times the input, the select
    nullary main_cst_1 (constant S_ .f32 0x3C23D70A#32),
    TRef.nullary main_call0.cst (constant S_ .f32 0x00000000#32),
    TRef.unary main_call0.cst main_call0.v0 (broadcastInDim S100000x128 ![] bcast_S_S100000x128),
    TRef.binary (.of main_v17 : TRef sig ⟨S100000x128, .f32⟩) main_call0.v0 main_call0.v1 (cmpf .oge),
    TRef.unary (.of main_cst_1 : TRef sig ⟨S_, .f32⟩) main_call0.v2 id,
    TRef.unary main_call0.v2 main_call0.v3 (broadcastInDim S100000x128 ![] bcast_S_S100000x128),
    TRef.binary main_call0.v3 (.of main_v17 : TRef sig ⟨S100000x128, .f32⟩) main_call0.v4 mulf,
    TRef.ternary main_call0.v1 (.of main_v17 : TRef sig ⟨S100000x128, .f32⟩) main_call0.v4 main_call0.call0.v0 select,
    -- layer normalisation of the sum branch: the row means, the centred rows, the mean of their squares, the reciprocal
    -- root of it plus the small constant, the scale and the shift
    nullary main_cst_2 (constant S_ .f32 0x00000000#32),
    binary main_v18 main_cst_2 main_v19 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    nullary main_cst_3 (constant S_ .f32 0x43000000#32),
    unary main_cst_3 main_v21 (broadcastInDim S100000x1 ![] bcast_S_S100000x1 : (⟨S_, .f32⟩ : BufTy).Contents (Elt F) → (⟨S100000x1, .f32⟩ : BufTy).Contents (Elt F)),
    binary main_v20 main_v21 main_v22 (Host.divf : (⟨S100000x1, .f32⟩ : BufTy).Contents (Elt F) → (⟨S100000x1, .f32⟩ : BufTy).Contents (Elt F) → (⟨S100000x1, .f32⟩ : BufTy).Contents (Elt F)),
    unary main_v22 main_v23 (broadcastInDim S100000x128 ![0, 1] bcast_S100000x1_S100000x128_0_1 : (⟨S100000x1, .f32⟩ : BufTy).Contents (Elt F) → (⟨S100000x128, .f32⟩ : BufTy).Contents (Elt F)),
    binary main_v18 main_v23 main_v24 (subf : (⟨S100000x128, .f32⟩ : BufTy).Contents (Elt F) → (⟨S100000x128, .f32⟩ : BufTy).Contents (Elt F) → (⟨S100000x128, .f32⟩ : BufTy).Contents (Elt F)),
    binary main_v24 main_v24 main_v25 (mulf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x00000000#32),
    binary main_v25 main_cst_4 main_v26 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v26 main_v27 (broadcastInDim S100000x1 ![0] bcast_S100000_S100000x1_0 : (⟨S100000, .f32⟩ : BufTy).Contents (Elt F) → (⟨S100000x1, .f32⟩ : BufTy).Contents (Elt F)),
    nullary main_cst_5 (constant S_ .f32 0x43000000#32),
    unary main_cst_5 main_v28 (broadcastInDim S100000x1 ![] bcast_S_S100000x1 : (⟨S_, .f32⟩ : BufTy).Contents (Elt F) → (⟨S100000x1, .f32⟩ : BufTy).Contents (Elt F)),
    binary main_v27 main_v28 main_v29 (Host.divf : (⟨S100000x1, .f32⟩ : BufTy).Contents (Elt F) → (⟨S100000x1, .f32⟩ : BufTy).Contents (Elt F) → (⟨S100000x1, .f32⟩ : BufTy).Contents (Elt F)),
    unary main_v22 main_v30 (broadcastInDim S100000x128 ![0, 1] bcast_S100000x1_S100000x128_0_1 : (⟨S100000x1, .f32⟩ : BufTy).Contents (Elt F) → (⟨S100000x128, .f32⟩ : BufTy).Contents (Elt F)),
    binary main_v18 main_v30 main_v31 (subf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x3727C5AC#32),
    unary main_cst_6 main_v32 (broadcastInDim S100000x1 ![] bcast_S_S100000x1 : (⟨S_, .f32⟩ : BufTy).Contents (Elt F) → (⟨S100000x1, .f32⟩ : BufTy).Contents (Elt F)),
    binary main_v29 main_v32 main_v33 (addf : (⟨S100000x1, .f32⟩ : BufTy).Contents (Elt F) → (⟨S100000x1, .f32⟩ : BufTy).Contents (Elt F) → (⟨S100000x1, .f32⟩ : BufTy).Contents (Elt F)),
    unary main_v33 main_v34 (Host.rsqrt : (⟨S100000x1, .f32⟩ : BufTy).Contents (Elt F) → (⟨S100000x1, .f32⟩ : BufTy).Contents (Elt F)),
    unary main_v34 main_v35 (broadcastInDim S100000x128 ![0, 1] bcast_S100000x1_S100000x128_0_1 : (⟨S100000x1, .f32⟩ : BufTy).Contents (Elt F) → (⟨S100000x128, .f32⟩ : BufTy).Contents (Elt F)),
    binary main_v31 main_v35 main_v36 (mulf : (⟨S100000x128, .f32⟩ : BufTy).Contents (Elt F) → (⟨S100000x128, .f32⟩ : BufTy).Contents (Elt F) → (⟨S100000x128, .f32⟩ : BufTy).Contents (Elt F)),
    unary main_arg8 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v36 main_v38 main_v39 (mulf : (⟨S100000x128, .f32⟩ : BufTy).Contents (Elt F) → (⟨S100000x128, .f32⟩ : BufTy).Contents (Elt F) → (⟨S100000x128, .f32⟩ : BufTy).Contents (Elt F)),
    unary main_arg9 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v39 main_v41 main_v42 (addf : (⟨S100000x128, .f32⟩ : BufTy).Contents (Elt F) → (⟨S100000x128, .f32⟩ : BufTy).Contents (Elt F) → (⟨S100000x128, .f32⟩ : BufTy).Contents (Elt F)),
    -- the product branch: ego * side times the second matrix, plus its bias row
    binary main_arg0 main_v12 main_v43 (mulf : (⟨S100000x128, .f32⟩ : BufTy).Contents (Elt F) → (⟨S100000x128, .f32⟩ : BufTy).Contents (Elt F) → (⟨S100000x128, .f32⟩ : BufTy).Contents (Elt F)),
    binary main_v43 main_arg6 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    -- the leaky rectifier of the product branch
    nullary main_cst_7 (constant S_ .f32 0x3C23D70A#32),
    TRef.nullary main_call1.cst (constant S_ .f32 0x00000000#32),
    TRef.unary main_call1.cst main_call1.v0 (broadcastInDim S100000x128 ![] bcast_S_S100000x128),
    TRef.binary (.of main_v47 : TRef sig ⟨S100000x128, .f32⟩) main_call1.v0 main_call1.v1 (cmpf .oge),
    TRef.unary (.of main_cst_7 : TRef sig ⟨S_, .f32⟩) main_call1.v2 id,
    TRef.unary main_call1.v2 main_call1.v3 (broadcastInDim S100000x128 ![] bcast_S_S100000x128),
    TRef.binary main_call1.v3 (.of main_v47 : TRef sig ⟨S100000x128, .f32⟩) main_call1.v4 mulf,
    TRef.ternary main_call1.v1 (.of main_v47 : TRef sig ⟨S100000x128, .f32⟩) main_call1.v4 main_call1.call0.v0 select,
    -- layer normalisation of the product branch
    nullary main_cst_8 (constant S_ .f32 0x00000000#32),
    binary main_v48 main_cst_8 main_v49 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v49 main_v50 (broadcastInDim S100000x1 ![0] bcast_S100000_S100000x1_0 : (⟨S100000, .f32⟩ : BufTy).Contents (Elt F) → (⟨S100000x1, .f32⟩ : BufTy).Contents (Elt F)),
    nullary main_cst_9 (constant S_ .f32 0x43000000#32),
    unary main_cst_9 main_v51 (broadcastInDim S100000x1 ![] bcast_S_S100000x1 : (⟨S_, .f32⟩ : BufTy).Contents (Elt F) → (⟨S100000x1, .f32⟩ : BufTy).Contents (Elt F)),
    binary main_v50 main_v51 main_v52 (Host.divf : (⟨S100000x1, .f32⟩ : BufTy).Contents (Elt F) → (⟨S100000x1, .f32⟩ : BufTy).Contents (Elt F) → (⟨S100000x1, .f32⟩ : BufTy).Contents (Elt F)),
    unary main_v52 main_v53 (broadcastInDim S100000x128 ![0, 1] bcast_S100000x1_S100000x128_0_1 : (⟨S100000x1, .f32⟩ : BufTy).Contents (Elt F) → (⟨S100000x128, .f32⟩ : BufTy).Contents (Elt F)),
    binary main_v48 main_v53 main_v54 (subf : (⟨S100000x128, .f32⟩ : BufTy).Contents (Elt F) → (⟨S100000x128, .f32⟩ : BufTy).Contents (Elt F) → (⟨S100000x128, .f32⟩ : BufTy).Contents (Elt F)),
    binary main_v54 main_v54 main_v55 (mulf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32),
    binary main_v55 main_cst_10 main_v56 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v56 main_v57 (broadcastInDim S100000x1 ![0] bcast_S100000_S100000x1_0 : (⟨S100000, .f32⟩ : BufTy).Contents (Elt F) → (⟨S100000x1, .f32⟩ : BufTy).Contents (Elt F)),
    nullary main_cst_11 (constant S_ .f32 0x43000000#32),
    unary main_cst_11 main_v58 (broadcastInDim S100000x1 ![] bcast_S_S100000x1 : (⟨S_, .f32⟩ : BufTy).Contents (Elt F) → (⟨S100000x1, .f32⟩ : BufTy).Contents (Elt F)),
    binary main_v57 main_v58 main_v59 (Host.divf : (⟨S100000x1, .f32⟩ : BufTy).Contents (Elt F) → (⟨S100000x1, .f32⟩ : BufTy).Contents (Elt F) → (⟨S100000x1, .f32⟩ : BufTy).Contents (Elt F)),
    unary main_v52 main_v60 (broadcastInDim S100000x128 ![0, 1] bcast_S100000x1_S100000x128_0_1 : (⟨S100000x1, .f32⟩ : BufTy).Contents (Elt F) → (⟨S100000x128, .f32⟩ : BufTy).Contents (Elt F)),
    binary main_v48 main_v60 main_v61 (subf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v62 (broadcastInDim S100000x1 ![] bcast_S_S100000x1 : (⟨S_, .f32⟩ : BufTy).Contents (Elt F) → (⟨S100000x1, .f32⟩ : BufTy).Contents (Elt F)),
    binary main_v59 main_v62 main_v63 (addf : (⟨S100000x1, .f32⟩ : BufTy).Contents (Elt F) → (⟨S100000x1, .f32⟩ : BufTy).Contents (Elt F) → (⟨S100000x1, .f32⟩ : BufTy).Contents (Elt F)),
    unary main_v63 main_v64 (Host.rsqrt : (⟨S100000x1, .f32⟩ : BufTy).Contents (Elt F) → (⟨S100000x1, .f32⟩ : BufTy).Contents (Elt F)),
    unary main_v64 main_v65 (broadcastInDim S100000x128 ![0, 1] bcast_S100000x1_S100000x128_0_1 : (⟨S100000x1, .f32⟩ : BufTy).Contents (Elt F) → (⟨S100000x128, .f32⟩ : BufTy).Contents (Elt F)),
    binary main_v61 main_v65 main_v66 (mulf : (⟨S100000x128, .f32⟩ : BufTy).Contents (Elt F) → (⟨S100000x128, .f32⟩ : BufTy).Contents (Elt F) → (⟨S100000x128, .f32⟩ : BufTy).Contents (Elt F)),
    unary main_arg10 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v66 main_v68 main_v69 (mulf : (⟨S100000x128, .f32⟩ : BufTy).Contents (Elt F) → (⟨S100000x128, .f32⟩ : BufTy).Contents (Elt F) → (⟨S100000x128, .f32⟩ : BufTy).Contents (Elt F)),
    unary main_arg11 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v69 main_v71 main_v72 (addf : (⟨S100000x128, .f32⟩ : BufTy).Contents (Elt F) → (⟨S100000x128, .f32⟩ : BufTy).Contents (Elt F) → (⟨S100000x128, .f32⟩ : BufTy).Contents (Elt F)),
    -- the result: the product branch plus the sum branch
    binary main_v72 main_v42 main_v73 (addf : (⟨S100000x128, .f32⟩ : BufTy).Contents (Elt F) → (⟨S100000x128, .f32⟩ : BufTy).Contents (Elt F) → (⟨S100000x128, .f32⟩ : BufTy).Contents (Elt F)) ]

-- a hundred and one binds re-associated: the rewrite under the chain recurses once per statement
set_option maxRecDepth 4096 in
set_option maxHeartbeats 4000000 in
/-- @main is that straight line: the two windows of its statements, the rectifier's body at its two calls and the
    select's body inside each unfolded, both sides are one chain of host steps once sequencing is reassociated. -/
theorem main_eq (c : Dev nD) : main (F := F) c = seq ops := by
  simp only [main, main_part0, main_part1, fn_leaky_relu.body, fn_where.body, seq, bind_assoc, pure_bind]

/-- The signature scopes no buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., binary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    binary_bufs_sub .., unary_bufs_sub .., nullary_bufs_sub .., unary_bufs_sub .., binary_bufs_sub .., unary_bufs_sub ..,
    binary_bufs_sub .., binary_bufs_sub .., nullary_bufs_sub .., binary_bufs_sub .., unary_bufs_sub .., nullary_bufs_sub ..,
    unary_bufs_sub .., binary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    binary_bufs_sub .., unary_bufs_sub .., nullary_bufs_sub .., unary_bufs_sub .., binary_bufs_sub .., unary_bufs_sub ..,
    binary_bufs_sub .., binary_bufs_sub .., nullary_bufs_sub .., binary_bufs_sub .., unary_bufs_sub .., nullary_bufs_sub ..,
    unary_bufs_sub .., binary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub ..⟩

/-- Every operation determines its results: none leaves a buffer's contents open. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩

/-! ### The arguments after the run

No operation writes an argument's buffer: at each of the hundred and one results the buffer read is another one
(two references told apart by computation), so the fold leaves what was there. -/

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
theorem arg3_eq (V : Valuation τ sig (Elt F)) :
    after ops V (main_arg3 : DevRef τ sig) = V (main_arg3 : DevRef τ sig) := by
  after_results_simp

set_option maxRecDepth 8192 in
set_option maxHeartbeats 4000000 in
theorem arg4_eq (V : Valuation τ sig (Elt F)) :
    after ops V (main_arg4 : DevRef τ sig) = V (main_arg4 : DevRef τ sig) := by
  after_results_simp

set_option maxRecDepth 8192 in
set_option maxHeartbeats 4000000 in
theorem arg5_eq (V : Valuation τ sig (Elt F)) :
    after ops V (main_arg5 : DevRef τ sig) = V (main_arg5 : DevRef τ sig) := by
  after_results_simp

set_option maxRecDepth 8192 in
set_option maxHeartbeats 4000000 in
theorem arg6_eq (V : Valuation τ sig (Elt F)) :
    after ops V (main_arg6 : DevRef τ sig) = V (main_arg6 : DevRef τ sig) := by
  after_results_simp

set_option maxRecDepth 8192 in
set_option maxHeartbeats 4000000 in
theorem arg7_eq (V : Valuation τ sig (Elt F)) :
    after ops V (main_arg7 : DevRef τ sig) = V (main_arg7 : DevRef τ sig) := by
  after_results_simp

set_option maxRecDepth 8192 in
set_option maxHeartbeats 4000000 in
theorem arg8_eq (V : Valuation τ sig (Elt F)) :
    after ops V (main_arg8 : DevRef τ sig) = V (main_arg8 : DevRef τ sig) := by
  after_results_simp

set_option maxRecDepth 8192 in
set_option maxHeartbeats 4000000 in
theorem arg9_eq (V : Valuation τ sig (Elt F)) :
    after ops V (main_arg9 : DevRef τ sig) = V (main_arg9 : DevRef τ sig) := by
  after_results_simp

set_option maxRecDepth 8192 in
set_option maxHeartbeats 4000000 in
theorem arg10_eq (V : Valuation τ sig (Elt F)) :
    after ops V (main_arg10 : DevRef τ sig) = V (main_arg10 : DevRef τ sig) := by
  after_results_simp

set_option maxRecDepth 8192 in
set_option maxHeartbeats 4000000 in
theorem arg11_eq (V : Valuation τ sig (Elt F)) :
    after ops V (main_arg11 : DevRef τ sig) = V (main_arg11 : DevRef τ sig) := by
  after_results_simp

end Program

/-! ### The result after the run

The fold at the result buffer, each operation's result rewritten to its function's value at the contents of its
operands' buffers: the composed term is `refOut` of the arguments, its named pieces unfolded — the same operations in
the same order, the typed references' transports the identity at these literal references. The sums, the gather, the
scatter-add, the quotient and the reciprocal root are kept folded meanwhile: the equation never looks inside them. -/

attribute [local irreducible] Host.reduceAdd Host.gather Host.scatterAdd Host.divf Host.rsqrt in
set_option maxRecDepth 8192 in
set_option maxHeartbeats 4000000 in
theorem out_eq (V : Valuation τ sig (Elt Ideal)) :
    after ops V (main_v73 : DevRef τ sig)
      = refOut (V (main_arg0 : DevRef τ sig)) (side (V (main_arg0 : DevRef τ sig)) (V (main_arg1 : DevRef τ sig)) (V (main_arg2 : DevRef τ sig)) (V (main_arg3 : DevRef τ sig)))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig)) := by
  after_results_simp
  rfl

/-- On the device, from any memory with zero counters: every weakly fair execution of @main terminates, the result
    buffer holds `refOut` of the arguments' launch contents — the product branch plus the sum branch, over the edge
    aggregation `side` of the first four arguments — and the twelve arguments hold what they held. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v73)
          = refOut (m ((c.tc : Thread nD τ).loc main_arg0))
              (side (m ((c.tc : Thread nD τ).loc main_arg0)) (m ((c.tc : Thread nD τ).loc main_arg1))
                (m ((c.tc : Thread nD τ).loc main_arg2)) (m ((c.tc : Thread nD τ).loc main_arg3)))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v73).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c))⟩)
    (run_seq scopedRefs_eq scopedSems_eq defs main (fun _ => ops) main_eq (fun _ => ops_sub) m ρ
      (fun _ => List.forall_iff_forall_mem.1 ops_fresh))

end Cert.ReferenceIdeal.RefValue

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.RefRow.lean ====
/-
  The reference's value read at one entry.

  The reference computes whole [100000,128] arrays. Read at row r, lane q, every stretch of it is the matching
  row function: a broadcast reads one entry of its operand, a pointwise operation acts on the entries, the row sum
  is the sum over the 128 lanes of that row, and the matrix product is the sum over the contracted coordinate.
  The two branches are added in the opposite order on the two sides, which commutativity of addition on the
  extended reals absorbs.
-/
import proofs.«177366_j12429635354865_2_alg».proof.Proof.RowSpec
import proofs.«177366_j12429635354865_2_alg».proof.Proof.RefTerm
import proofs.«177366_j12429635354865_2_alg».proof.Proof.LibPlainDot
import Idealize.ShloMosaic.PureOps.Ideal.Laws
import Idealize.ShloMosaic.Lib.ValueIdx

noncomputable section

open scoped BigOperators

namespace Cert.ReferenceIdeal.RefRow

open Cert.ReferenceIdeal Cert.ReferenceIdeal.Gen Cert.ReferenceIdeal.RefValue Idealize.ShloMosaic
  Idealize.ShloMosaic.ValueIdx

/-- A [128] vector spread over the rows reads, at lane `q` of any row, the vector's entry `q`. -/
theorem brow_apply (v : FVec Ideal S128 .f32) (r : Fin 100000) (q : Fin 128) :
    brow v (ix2 r q) = v (ix1 q) := by
  unfold brow broadcastInDim
  refine congrArg v (funext fun a => Fin.ext ?_)
  match a with
  | ⟨0, _⟩ => rfl

/-- A [N,1] column spread over the lanes reads, at any lane of row `r`, the column's entry `r`. -/
theorem bcol_apply (v : FVec Ideal S100000x1 .f32) (r : Fin 100000) (q : Fin 128) :
    bcol v (ix2 r q) = v (ix2 r 0) := by
  unfold bcol broadcastInDim
  refine congrArg v (funext fun a => Fin.ext ?_)
  match a with
  | ⟨0, _⟩ => rfl
  | ⟨1, _⟩ => rfl

/-- A constant column reads the extended real its word encodes. -/
theorem splat1_apply (w : BitVec 32) (r : Fin 100000) :
    splat1 w (ix2 r 0) = Ideal.ofBits .f32 w := rfl

/-- The rectifier over an array acts on each entry. -/
theorem leaky_apply (x : FVec Ideal S100000x128 .f32) (r : Fin 100000) (q : Fin 128) :
    leaky x (ix2 r q) = Cert.Agg.act (x (ix2 r q)) := rfl

/-- A [N] vector set up as a [N,1] column reads, at row `r`, the vector's entry `r`. -/
theorem bcol0_apply (z : FVec Ideal S100000 .f32) (r : Fin 100000) :
    broadcastInDim S100000x1 ![0] bcast_S100000_S100000x1_0 z (ix2 r 0) = z (ix1 r) := by
  unfold broadcastInDim
  refine congrArg z (funext fun a => Fin.ext ?_)
  match a with
  | ⟨0, _⟩ => rfl

/-- The sum along the lanes from the zero word is, at row `r`, the sum of that row's 128 entries. -/
theorem rowSum_apply (y : FVec Ideal S100000x128 .f32) (r : Fin 100000) :
    Host.reduceAdd y (constant (F := Ideal) S_ .f32 0x00000000#32) reducesTo_S100000x128_S100000_d1 h_S_ (ix1 r)
      = ∑ k : Fin 128, y (ix2 r k) := by
  have h : S100000x128.Reduces [1] S100000 := by decide
  refine (Ideal.hostReduceAdd_single reducesTo_S100000x128_S100000_d1 h y _ (ix1 r)).trans ?_
  rw [show (constant (F := Ideal) S_ .f32 0x00000000#32 (Shape.Idx.first h_S_)) = (0 : EReal) from Ideal.ofBits_zero_f32,
    zero_add]
  refine Finset.sum_congr rfl fun k _ => congrArg y (funext fun a => Fin.ext ?_)
  match a with
  | ⟨0, _⟩ => rfl
  | ⟨1, _⟩ => rfl

/-- The row means as a column: at row `r` the mean of that row's 128 entries. -/
theorem rowMean_apply (y : FVec Ideal S100000x128 .f32) (r : Fin 100000) :
    rowMean y (ix2 r 0) = Cert.Agg.mean (fun k => y (ix2 r k)) := by
  unfold rowMean Cert.Agg.mean
  exact congrArg (fun t => Ideal.div t (Ideal.ofBits .f32 0x43000000#32))
    ((bcol0_apply _ r).trans (rowSum_apply y r))

/-- Every row with its mean subtracted: at row `r`, lane `q`, the row's centred entry `q`. -/
theorem centre_apply (y : FVec Ideal S100000x128 .f32) (r : Fin 100000) (q : Fin 128) :
    centre y (ix2 r q) = Cert.Agg.centred (fun k => y (ix2 r k)) q := by
  unfold centre Cert.Agg.centred
  exact congrArg (fun t => y (ix2 r q) - t) ((bcol_apply _ r q).trans (rowMean_apply y r))

/-- Layer normalisation along the lanes: at row `r`, lane `q`, the normalised row's entry `q`, scaled by γ's
    entry `q` and shifted by β's. -/
theorem layerNorm_apply (y : FVec Ideal S100000x128 .f32) (γ β : FVec Ideal S128 .f32) (r : Fin 100000) (q : Fin 128) :
    layerNorm y γ β (ix2 r q)
      = Cert.Agg.lnorm (fun k => y (ix2 r k)) (fun n => γ (ix1 n)) (fun n => β (ix1 n)) q := by
  -- the reciprocal standard deviation of row r, read off the column that holds one per row
  have hs : bcol (Host.rsqrt (addf (rowMean (mulf (centre y) (centre y))) (splat1 0x3727C5AC#32))) (ix2 r q)
      = Cert.Agg.invStd (fun k => y (ix2 r k)) := by
    refine (bcol_apply _ r q).trans ?_
    unfold Cert.Agg.invStd
    refine congrArg Ideal.rsqrt ?_
    refine congrArg (fun t => t + Ideal.ofBits .f32 0x3727C5AC#32) ?_
    refine (rowMean_apply _ r).trans (congrArg Cert.Agg.mean (funext fun k => ?_))
    exact congrArg₂ (fun a b => a * b) (centre_apply y r k) (centre_apply y r k)
  unfold layerNorm Cert.Agg.lnorm
  exact congrArg₂ (fun a b => a + b)
    (congrArg₂ (fun a b => a * b) (congrArg₂ (fun a b => a * b) (centre_apply y r q) hs) (brow_apply γ r q))
    (brow_apply β r q)

/-- The record of the reference's matrix product is the plain one: contract the left operand's lanes with the
    right operand's rows. -/
theorem dot_eq_plain : dot_S100000x128_S128x128_S100000x128_1_0_0_1_n_n = DotDims.plain 100000 128 128 := rfl

/-- The matrix product at row `r`, lane `n`: the sum over the contracted coordinate. -/
theorem dot_apply (u : FVec Ideal S100000x128 .f32) (W : FVec Ideal S128x128 .f32) (r : Fin 100000) (n : Fin 128) :
    Host.dotGeneral dot_S100000x128_S128x128_S100000x128_1_0_0_1_n_n none u W (ix2 r n)
      = ∑ c : Fin 128, u (ix2 r c) * W (ix2 c n) := by
  rw [dot_eq_plain]
  exact hostDotGeneral_plain_apply none u W r n

/-- One branch at row `r`, lane `q`: the row times the matrix, plus the bias, through the rectifier, normalised. -/
theorem refBranch_apply (u : FVec Ideal S100000x128 .f32) (W : FVec Ideal S128x128 .f32) (b γ β : FVec Ideal S128 .f32)
    (r : Fin 100000) (q : Fin 128) :
    refBranch u W b γ β (ix2 r q)
      = Cert.Agg.branch (fun c => u (ix2 r c)) (fun c n => W (ix2 c n)) (fun n => b (ix1 n)) (fun n => γ (ix1 n))
          (fun n => β (ix1 n)) q := by
  unfold refBranch Cert.Agg.branch
  refine (layerNorm_apply _ γ β r q).trans
    (congrArg (fun f => Cert.Agg.lnorm f (fun n => γ (ix1 n)) (fun n => β (ix1 n)) q) (funext fun n => ?_))
  refine (leaky_apply _ r n).trans (congrArg Cert.Agg.act ?_)
  exact congrArg₂ (fun a c => a + c) (dot_apply u W r n) (brow_apply b r n)

/-- THE REFERENCE'S RESULT IS THE ROW FUNCTION AT EVERY ENTRY. The reference adds the product branch to the sum branch,
    the row function the sum branch to the product branch: addition on the extended reals commutes. -/
theorem refOut_eq_out (ego s : FVec Ideal S100000x128 .f32) (W1 : FVec Ideal S128x128 .f32) (b1 : FVec Ideal S128 .f32)
    (W2 : FVec Ideal S128x128 .f32) (b2 γ1 β1 γ2 β2 : FVec Ideal S128 .f32) :
    refOut ego s W1 b1 W2 b2 γ1 β1 γ2 β2 = Cert.Agg.out ego s W1 b1 W2 b2 γ1 β1 γ2 β2 := by
  funext i
  obtain ⟨r, q, rfl⟩ : ∃ (r : Fin 100000) (q : Fin 128), i = ix2 r q := ⟨i 0, i 1, eq_ix2 i⟩
  rw [Cert.Agg.out_ix2]
  unfold refOut Cert.Agg.outAt Cert.Agg.rowOut
  exact (congrArg₂ (fun a c => a + c) (refBranch_apply (mulf ego s) W2 b2 γ2 β2 r q)
    (refBranch_apply (addf ego s) W1 b1 γ1 β1 r q)).trans (add_comm _ _)

end Cert.ReferenceIdeal.RefRow

end
-- ==== Proof.Claims.lean ====
/-
  The five claims.

  Both programs end with their result array at one function of the twelve arguments: the specification's output
  (RowSpec.lean) of the embeddings, the aggregated messages, the two matrices and the six vectors. The kernel's array
  is that function because each grid point writes the rows it loaded, transformed row by row (KernelArray.lean); the
  reference's result is its composed whole-array term (RefRun.lean), which is that function entry by entry
  (RefRow.lean: the two branches are added in the other order, and addition on the extended reals commutes). The
  aggregated messages are the same sixteen host operations in both programs, so the two terms for them are one term;
  nothing in the argument needs the inputs to be finite. The three frames are the runs with the result dropped, and
  the idealised kernel is the kernel's own text read at exact values: no rewrite to account for.
-/
import proofs.«177366_j12429635354865_2_alg».proof.Defs
import proofs.«177366_j12429635354865_2_alg».proof.Proof.Gen.Kernel.Frame
import proofs.«177366_j12429635354865_2_alg».proof.Proof.Gen.KernelIdeal.Frame
import proofs.«177366_j12429635354865_2_alg».proof.Proof.Gen.Pre_finite_inputs
import proofs.«177366_j12429635354865_2_alg».proof.Proof.KernelArray
import proofs.«177366_j12429635354865_2_alg».proof.Proof.RefRun
import proofs.«177366_j12429635354865_2_alg».proof.Proof.RefRow

noncomputable section

namespace Cert.Proof.AggClaims

open Idealize.ShloMosaic Idealize.ShloMosaic.TcCoe Idealize.SL.Sem

attribute [local irreducible] Host.gather Host.scatterAdd in
/-- The aggregated messages as the kernel's program computes them in front of the call and as the reference computes
    them are one term: the same gather, product and scatter-add over the same index arithmetic, the two programs'
    dimension records equal field by field. -/
theorem side_eq (ego : FVec Ideal Cert.KernelIdeal.S100000x128 .f32)
    (row col : (⟨Cert.KernelIdeal.S1600000, .i32⟩ : BufTy).Contents (Elt Ideal))
    (val : FVec Ideal Cert.KernelIdeal.S1600000 .f32) :
    Cert.KernelIdeal.HostValue.sideK ego row col val = Cert.ReferenceIdeal.RefValue.side ego row col val := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing in this kernel. -/
theorem preserves : Cert.preserves_Kernel_KernelIdeal := trivial

/-- From memories that agree on the arguments both programs end with the specification's output of those
    arguments in their result arrays. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9, a10, a11⟩ := hagree c
  rw [a0, a1, a2, a3, a4, a5, a6, a7, a8, a9, a10, a11, Cert.ReferenceIdeal.RefRow.refOut_eq_out]
  show _ = Cert.KernelIdeal.ArrayValue.result m c
  unfold Cert.KernelIdeal.ArrayValue.result
  rw [side_eq]

end Cert.Proof.AggClaims

end
-- ==== Proof.lean ====
/-
  The certificate: a tiled kernel for the dense part of a graph aggregator (two branches of matrix product, bias,
  leaky rectifier and layer normalisation over [100000,128] arrays, added) against the reference that computes the
  same on whole arrays, at exact values. The witnesses of the programs' stated side conditions come first, then the three frames, the (empty)
  idealisation ledger and the equality of results, proved in Proof/Claims.lean.
-/
import proofs.«177366_j12429635354865_2_alg».proof.Defs
import proofs.«177366_j12429635354865_2_alg».proof.Proof.Gen.Kernel
import proofs.«177366_j12429635354865_2_alg».proof.Proof.Gen.Kernel.Skeleton
import proofs.«177366_j12429635354865_2_alg».proof.Proof.Gen.Kernel.Launch
import proofs.«177366_j12429635354865_2_alg».proof.Proof.Gen.Kernel.Points
import proofs.«177366_j12429635354865_2_alg».proof.Proof.Gen.Kernel.Frame
import proofs.«177366_j12429635354865_2_alg».proof.Proof.Gen.KernelIdeal
import proofs.«177366_j12429635354865_2_alg».proof.Proof.Gen.KernelIdeal.Skeleton
import proofs.«177366_j12429635354865_2_alg».proof.Proof.Gen.KernelIdeal.Launch
import proofs.«177366_j12429635354865_2_alg».proof.Proof.Gen.KernelIdeal.Points
import proofs.«177366_j12429635354865_2_alg».proof.Proof.Gen.KernelIdeal.Frame
import proofs.«177366_j12429635354865_2_alg».proof.Proof.Gen.KernelIdeal.Value
import proofs.«177366_j12429635354865_2_alg».proof.Proof.Gen.ReferenceIdeal
import proofs.«177366_j12429635354865_2_alg».proof.Proof.Gen.Pre_finite_inputs
import proofs.«177366_j12429635354865_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    AggClaims.frame_k, AggClaims.frame_ki, AggClaims.frame_ri, AggClaims.preserves, AggClaims.algebraic⟩

end Cert.Proof

end
